-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 62
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S128x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S128x128, .f32⟩
  | .hbm, ⟨60, _⟩ => ⟨S128x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S128x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S128x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S50000x128, .f32⟩
  | .hbm, ⟨77, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call1_cst : Ref sig .tc := ⟨.hbm, 75, rfl⟩
abbrev main_call1_v0 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result kept.

  The program is four segments: host operations, the first layer's dense region, host operations, the second layer's
  dense region. Its run from any launch memory terminates, nothing faulting, with every buffer that outlives the run
  at the contents the segments leave one after another; in particular the result array holds what the second region's
  write-backs leave, and every argument array is as launched. This is the launch over the segments that also gives the
  frame, read at the result array as well as at the arguments.
-/
import proofs.«119215_j82592221102739_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gen

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.Dense.lean ====
/-
  One dense graph-convolution layer, read index by index over the extended reals.

  For an aggregated-neighbour array `A` and a node-feature array `H` (both `M × 128`), two `128 × 128` weight
  arrays `Wl`, `Wr` (already laid out input-feature × output-feature) and a bias `b` of length 128, the layer is
      (i, j) ↦ max ((∑ k, A (i, k) · Wl (k, j)  +  ∑ k, H (i, k) · Wr (k, j)) + b j, 0).
  Row `i` of the result reads row `i` of `A` and of `H` only (and all of `Wl`, `Wr`, `b`), so the layer computed
  on a block of rows is the block of the layer computed on the whole arrays. The three summands may be added in
  either grouping: addition on the extended reals is commutative and associative (no finiteness is needed).
-/
import proofs.«119215_j82592221102739_1_alg».proof.Proof.LibPlainDot

noncomputable section

namespace Cert.Sage

open Idealize.ShloMosaic Idealize.ShloMosaic.ValueIdx Cert.Lib.PlainDot

/-- The layer, index by index; the rectifier's zero is kept as the printed word. -/
def dense {M : Nat} (A H : (⟨2, ![M, 128]⟩ : Shape).Idx → EReal) (Wl Wr : (⟨2, ![128, 128]⟩ : Shape).Idx → EReal)
    (b : (⟨1, ![128]⟩ : Shape).Idx → EReal) : (⟨2, ![M, 128]⟩ : Shape).Idx → EReal :=
  fun j => max ((mm A Wl j + mm H Wr j) + b (ix1 (j 1))) (Ideal.ofBits .f32 0x00000000#32)

/-- The same layer with the bias added before the second product (the other grouping of the three summands). -/
theorem dense_assoc {M : Nat} (A H : (⟨2, ![M, 128]⟩ : Shape).Idx → EReal) (Wl Wr : (⟨2, ![128, 128]⟩ : Shape).Idx → EReal)
    (b : (⟨1, ![128]⟩ : Shape).Idx → EReal) (j : (⟨2, ![M, 128]⟩ : Shape).Idx) :
    max ((mm A Wl j + b (ix1 (j 1))) + mm H Wr j) (Ideal.ofBits .f32 0x00000000#32) = dense A H Wl Wr b j := by
  unfold dense
  rw [add_right_comm]

/-- Row locality. If row `j'₀` of `A'`, `H'` is row `j₀` of `A`, `H` and the two indices name the same column, the
    layer of the primed arrays at `j'` is the layer of the unprimed ones at `j`. -/
theorem dense_row {M M' : Nat} (A H : (⟨2, ![M, 128]⟩ : Shape).Idx → EReal) (A' H' : (⟨2, ![M', 128]⟩ : Shape).Idx → EReal)
    (Wl Wr : (⟨2, ![128, 128]⟩ : Shape).Idx → EReal) (b : (⟨1, ![128]⟩ : Shape).Idx → EReal)
    (j' : (⟨2, ![M', 128]⟩ : Shape).Idx) (j : (⟨2, ![M, 128]⟩ : Shape).Idx)
    (hq : (j' 1 : Fin 128) = (j 1 : Fin 128))
    (hA : ∀ k : Fin 128, A' (ix2 (j' 0) k) = A (ix2 (j 0) k))
    (hH : ∀ k : Fin 128, H' (ix2 (j' 0) k) = H (ix2 (j 0) k)) :
    dense A' H' Wl Wr b j' = dense A H Wl Wr b j := by
  unfold dense mm
  have e1 : (∑ k : Fin 128, A' (ix2 (j' 0) k) * Wl (ix2 k (j' 1))) = ∑ k : Fin 128, A (ix2 (j 0) k) * Wl (ix2 k (j 1)) :=
    Finset.sum_congr rfl fun k _ => by rw [hA k, hq]
  have e2 : (∑ k : Fin 128, H' (ix2 (j' 0) k) * Wr (ix2 k (j' 1))) = ∑ k : Fin 128, H (ix2 (j 0) k) * Wr (ix2 k (j 1)) :=
    Finset.sum_congr rfl fun k _ => by rw [hH k, hq]
  rw [e1, e2, hq]

end Cert.Sage

end
-- ==== Proof.Payload.lean ====
/-
  What each kernel body stores, as one function of the blocks it loads.

  A body loads a block of 5000 rows of the aggregated array and of the feature array, the two whole weight arrays
  and the whole bias; it rounds the four matrix operands to a narrower float format (the identity on exact values),
  multiplies each row block by its weight array into a zero accumulator, adds the two products, adds the bias row
  spread over the 5000 rows, and takes the maximum with zero. On exact values that is the dense layer of the
  loaded blocks.
-/
import proofs.«119215_j82592221102739_1_alg».proof.Proof.Gen.KernelIdeal.Skeleton
import proofs.«119215_j82592221102739_1_alg».proof.Proof.Dense
import Idealize.ShloMosaic.Lib.Pipeline.Value

noncomputable section

namespace Cert.KernelIdeal.Pay

open Idealize.ShloMosaic Idealize.ShloMosaic.ValueIdx Idealize.ShloMosaic.Pipeline Cert.KernelIdeal Cert.KernelIdeal.Gen Cert.Lib.PlainDot

/-- The printed dimension numbers of the body's products are the plain `5000×128` by `128×128` ones. -/
theorem dot_plain : dot_S5000x128_S128x128_S5000x128_1_0_0_1_n_n = DotDims.plain 5000 128 128 := rfl

/-- Rounding to a narrower format is the identity on exact values. -/
theorem truncf_id {s : Shape} {φ ψ : FTy} (a : FVec Ideal s φ) (h : ψ.bits < φ.bits) :
    (truncf ψ a h : FVec Ideal s ψ) = a := rfl

/-- A length-128 vector recast as one row and spread over 5000 rows, read at `j`, is the vector at `j`'s column. -/
theorem bias_row (v : S128.Idx → EReal) (j : S5000x128.Idx) :
    broadcastTo S5000x128 (shapeCast S1x128 v shapeCasts_S128_S1x128) broadcasts_S1x128_S5000x128 j = v (ix1 (j 1)) := by
  rw [broadcastTo_apply (s := S1x128) (t := S5000x128) _ broadcasts_S1x128_S5000x128 j (ix2 (0 : Fin 1) (j 1)) (fun a => by
        match a with
        | ⟨0, _⟩ => rfl
        | ⟨1, _⟩ => rfl)]
  exact (shapeCast_addUnit_apply (n := 1) ![128] v shapeCasts_S128_S1x128 _).trans
    (congrArg v (funext fun d => by match d with | ⟨0, _⟩ => rfl))

/-- Region 0's stored value is the dense layer of its loaded blocks. -/
theorem pay0_eq (x0 x1 : Vec Ideal S5000x128 .f32) (x2 x3 : Vec Ideal S128x128 .f32) (x4 : Vec Ideal S128 .f32) :
    k0_pay1 (F := Ideal) x0 x1 x2 x3 x4 = Cert.Sage.dense x0 x1 x2 x3 x4 := by
  funext j
  unfold k0_pay1
  simp only [shapeCast_self, truncf_id]
  rw [maximumf_apply, addf_apply, addf_apply, bias_row, dot_plain, matmul_zero, matmul_zero]
  rfl

/-- Region 1's stored value is the dense layer of its loaded blocks. -/
theorem pay1_eq (x0 x1 : Vec Ideal S5000x128 .f32) (x2 x3 : Vec Ideal S128x128 .f32) (x4 : Vec Ideal S128 .f32) :
    k1_pay1 (F := Ideal) x0 x1 x2 x3 x4 = Cert.Sage.dense x0 x1 x2 x3 x4 := by
  funext j
  unfold k1_pay1
  simp only [shapeCast_self, truncf_id]
  rw [maximumf_apply, addf_apply, addf_apply, bias_row, dot_plain, matmul_zero, matmul_zero]
  rfl

end Cert.KernelIdeal.Pay

end
-- ==== Proof.Region0.lean ====
/-
  What region 0 leaves in its result array: the dense layer of the arrays it finds.

  The grid has ten points. At point `t` the region stages rows `5000·t … 5000·t + 4999` of the aggregated array and of
  the feature array, the two weight arrays whole and the bias whole, and writes the body's result back to the same
  rows of the result array. The body's result is the dense layer of the staged blocks; by row locality that is the
  block of the dense layer of the whole arrays. The ten blocks cover the 50000 rows (row `r` lies in block `r / 5000`),
  so the result array ends as the dense layer of the whole arrays, whatever the region found there.
-/
import proofs.«119215_j82592221102739_1_alg».proof.Proof.Gen.KernelIdeal.Frame
import proofs.«119215_j82592221102739_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the two row-blocked inputs and the output sit at block row `t`, block
    column 0; the weights and the bias at block 0. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight array's block at any point is the whole array. -/
theorem wl_whole (c : Dev nD) (t : Fin cfg0.N) (y : S128x128.Idx) : iblk0 V c 2 t y = V c main_v25 y := by
  obtain ⟨-, -, -, -, e0, e1, -⟩ := idx t
  show V c main_v25 (((cfg0.win 2).blk t).view.emb y) = V c main_v25 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

/-- The second weight array's block at any point is the whole array. -/
theorem wr_whole (c : Dev nD) (t : Fin cfg0.N) (y : S128x128.Idx) : iblk0 V c 3 t y = V c main_v26 y := by
  obtain ⟨-, -, -, -, -, -, e0, e1, -⟩ := idx t
  show V c main_v26 (((cfg0.win 3).blk t).view.emb y) = V c main_v26 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

/-- The bias's block at any point is the whole vector. -/
theorem bias_whole (c : Dev nD) (t : Fin cfg0.N) (y : S128.Idx) : iblk0 V c 4 t y = V c main_arg2 y := by
  obtain ⟨-, -, -, -, -, -, -, -, e0, -⟩ := idx t
  show V c main_arg2 (((cfg0.win 4).blk t).view.emb y) = V c main_arg2 y
  have h : ((cfg0.win 4).blk t).view.emb y = y := by
    funext a; apply Fin.ext
    match a with
    | ⟨0, _⟩ => show win0_4.index t (0 : Fin 1) * 128 + 1 * (y 0).val = (y 0).val; omega
  rw [h]

/-- Row `r` of the aggregated array's block at point `t` is row `5000·t + r` of the array. -/
theorem agg_rows (c : Dev nD) (t : Fin cfg0.N) (r : Fin 5000) (k : Fin 128) (R : Fin 50000) (hR : R.val = t.val * 5000 + r.val) :
    iblk0 V c 0 t (ix2 r k) = V c main_v24 (ix2 R k) := by
  obtain ⟨e0, e1, -⟩ := idx t
  show V c main_v24 (((cfg0.win 0).blk t).view.emb (ix2 r k)) = V c main_v24 (ix2 R k)
  have h : ((cfg0.win 0).blk t).view.emb (ix2 r k) = ix2 R k := by
    funext a; apply Fin.ext
    match a with
    | ⟨0, _⟩ => show win0_0.index t (0 : Fin 2) * 5000 + 1 * r.val = R.val; omega
    | ⟨1, _⟩ => show win0_0.index t (1 : Fin 2) * 128 + 1 * k.val = k.val; omega
  rw [h]

/-- Row `r` of the feature array's block at point `t` is row `5000·t + r` of the array. -/
theorem feat_rows (c : Dev nD) (t : Fin cfg0.N) (r : Fin 5000) (k : Fin 128) (R : Fin 50000) (hR : R.val = t.val * 5000 + r.val) :
    iblk0 V c 1 t (ix2 r k) = V c main_arg0 (ix2 R k) := by
  obtain ⟨-, -, e0, e1, -⟩ := idx t
  show V c main_arg0 (((cfg0.win 1).blk t).view.emb (ix2 r k)) = V c main_arg0 (ix2 R k)
  have h : ((cfg0.win 1).blk t).view.emb (ix2 r k) = ix2 R k := by
    funext a; apply Fin.ext
    match a with
    | ⟨0, _⟩ => show win0_1.index t (0 : Fin 2) * 5000 + 1 * r.val = R.val; omega
    | ⟨1, _⟩ => show win0_1.index t (1 : Fin 2) * 128 + 1 * k.val = k.val; omega
  rw [h]

/-- The layer of the arrays the region finds. -/
abbrev layer (c : Dev nD) : S50000x128.Idx → EReal :=
  dense (V c main_v24) (V c main_arg0) (V c main_v25) (V c main_v26) (V c main_arg2)

/-- What point `t` writes back is block `t` of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero off2]
  simp only [View.ld_unit_zero (S := S5000x128) off2, View.ld_unit_zero (S := S128x128) off2, View.ld_unit_zero (S := S128) off1]
  rw [Pay.pay0_eq, show iblk0 V c 2 t = V c main_v25 from funext (wl_whole V c t),
    show iblk0 V c 3 t = V c main_v26 from funext (wr_whole V c t),
    show iblk0 V c 4 t = V c main_arg2 from funext (bias_whole V c t)]
  obtain ⟨-, -, -, -, -, -, -, -, -, e0, e1⟩ := idx t
  have ht : t.val < 10 := t.isLt
  funext y
  have hy0 : (y 0).val < 5000 := (y 0).isLt
  have hy1 : (y 1).val < 128 := (y 1).isLt
  have hr : (((cfg0.win 5).blk t).view.emb y 0).val = t.val * 5000 + (y 0).val := by
    show win0_5.index t (0 : Fin 2) * 5000 + 1 * (y 0).val = _; omega
  have hc : (((cfg0.win 5).blk t).view.emb y 1).val = (y 1).val := by
    show win0_5.index t (1 : Fin 2) * 128 + 1 * (y 1).val = _; omega
  exact dense_row (V c main_v24) (V c main_arg0) (iblk0 V c 0 t) (iblk0 V c 1 t) (V c main_v25) (V c main_v26) (V c main_arg2)
    y (((cfg0.win 5).blk t).view.emb y) (Fin.ext hc.symm)
    (fun k => agg_rows V c t (y 0) k _ hr) (fun k => feat_rows V c t (y 0) k _ hr)

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Every index of the result array lies in the block some point writes back: row `r` in block `r / 5000`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  refine ⟨⟨(i 0).val / 5000, by show (i 0).val / 5000 < 10; omega⟩, flush0_5 _, ?_⟩
  rw [mem_blk]
  obtain ⟨-, -, -, -, -, -, -, -, -, e0, e1⟩ := idx ⟨(i 0).val / 5000, by show (i 0).val / 5000 < 10; omega⟩
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ _ ∧ _ < (i 0).val / 5000 * 5000 + 5000; omega
  | ⟨1, _⟩ => show win0_5.index _ (1 : Fin 2) * 128 ≤ (i 1).val ∧ (i 1).val < win0_5.index _ (1 : Fin 2) * 128 + 128; rw [e1]; omega

/-- The result array after the region: the dense layer of the arrays the region found. -/
theorem final (c : Dev nD) : (dat0 V c).arrAt 5 cfg0.N = layer V c :=
  (dat0 V c).arrAt_eq_of_cover 5 (layer V c) (fun t _ => flushed_eq V c t) (cover)

end Cert.KernelIdeal.Region0

end
-- ==== Proof.Region1.lean ====
/-
  What region 1 leaves in its result array: the dense layer of the arrays it finds.

  The grid has ten points. At point `t` the region stages rows `5000·t … 5000·t + 4999` of the aggregated array and of
  the feature array, the two weight arrays whole and the bias whole, and writes the body's result back to the same
  rows of the result array. The body's result is the dense layer of the staged blocks; by row locality that is the
  block of the dense layer of the whole arrays. The ten blocks cover the 50000 rows (row `r` lies in block `r / 5000`),
  so the result array ends as the dense layer of the whole arrays, whatever the region found there.
-/
import proofs.«119215_j82592221102739_1_alg».proof.Proof.Gen.KernelIdeal.Frame
import proofs.«119215_j82592221102739_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a <;> rfl

/-- The printed index maps over the grid: the two row-blocked inputs and the output sit at block row `t`, block
    column 0; the weights and the bias at block 0. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The first weight array's block at any point is the whole array. -/
theorem wl_whole (c : Dev nD) (t : Fin cfg1.N) (y : S128x128.Idx) : iblk1 V c 2 t y = V c main_v41 y := by
  obtain ⟨-, -, -, -, e0, e1, -⟩ := idx t
  show V c main_v41 (((cfg1.win 2).blk t).view.emb y) = V c main_v41 y
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  rw [h]

/-- The second weight array's block at any point is the whole array. -/
theorem wr_whole (c : Dev nD) (t : Fin cfg1.N) (y : S128x128.Idx) : iblk1 V c 3 t y = V c main_v42 y := by
  obtain ⟨-, -, -, -, -, -, e0, e1, -⟩ := idx t
  show V c main_v42 (((cfg1.win 3).blk t).view.emb y) = V c main_v42 y
  have h : ((cfg1.win 3).blk t).view.emb y = y := by
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  rw [h]

/-- The bias's block at any point is the whole vector. -/
theorem bias_whole (c : Dev nD) (t : Fin cfg1.N) (y : S128.Idx) : iblk1 V c 4 t y = V c main_arg5 y := by
  obtain ⟨-, -, -, -, -, -, -, -, e0, -⟩ := idx t
  show V c main_arg5 (((cfg1.win 4).blk t).view.emb y) = V c main_arg5 y
  have h : ((cfg1.win 4).blk t).view.emb y = y := by
    funext a; apply Fin.ext
    match a with
    | ⟨0, _⟩ => show win1_4.index t (0 : Fin 1) * 128 + 1 * (y 0).val = (y 0).val; omega
  rw [h]

/-- Row `r` of the aggregated array's block at point `t` is row `5000·t + r` of the array. -/
theorem agg_rows (c : Dev nD) (t : Fin cfg1.N) (r : Fin 5000) (k : Fin 128) (R : Fin 50000) (hR : R.val = t.val * 5000 + r.val) :
    iblk1 V c 0 t (ix2 r k) = V c main_v40 (ix2 R k) := by
  obtain ⟨e0, e1, -⟩ := idx t
  show V c main_v40 (((cfg1.win 0).blk t).view.emb (ix2 r k)) = V c main_v40 (ix2 R k)
  have h : ((cfg1.win 0).blk t).view.emb (ix2 r k) = ix2 R k := by
    funext a; apply Fin.ext
    match a with
    | ⟨0, _⟩ => show win1_0.index t (0 : Fin 2) * 5000 + 1 * r.val = R.val; omega
    | ⟨1, _⟩ => show win1_0.index t (1 : Fin 2) * 128 + 1 * k.val = k.val; omega
  rw [h]

/-- Row `r` of the feature array's block at point `t` is row `5000·t + r` of the array. -/
theorem feat_rows (c : Dev nD) (t : Fin cfg1.N) (r : Fin 5000) (k : Fin 128) (R : Fin 50000) (hR : R.val = t.val * 5000 + r.val) :
    iblk1 V c 1 t (ix2 r k) = V c main_v27 (ix2 R k) := by
  obtain ⟨-, -, e0, e1, -⟩ := idx t
  show V c main_v27 (((cfg1.win 1).blk t).view.emb (ix2 r k)) = V c main_v27 (ix2 R k)
  have h : ((cfg1.win 1).blk t).view.emb (ix2 r k) = ix2 R k := by
    funext a; apply Fin.ext
    match a with
    | ⟨0, _⟩ => show win1_1.index t (0 : Fin 2) * 5000 + 1 * r.val = R.val; omega
    | ⟨1, _⟩ => show win1_1.index t (1 : Fin 2) * 128 + 1 * k.val = k.val; omega
  rw [h]

/-- The layer of the arrays the region finds. -/
abbrev layer (c : Dev nD) : S50000x128.Idx → EReal :=
  dense (V c main_v40) (V c main_v27) (V c main_v41) (V c main_v42) (V c main_arg5)

/-- What point `t` writes back is block `t` of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero off2]
  simp only [View.ld_unit_zero (S := S5000x128) off2, View.ld_unit_zero (S := S128x128) off2, View.ld_unit_zero (S := S128) off1]
  rw [Pay.pay1_eq, show iblk1 V c 2 t = V c main_v41 from funext (wl_whole V c t),
    show iblk1 V c 3 t = V c main_v42 from funext (wr_whole V c t),
    show iblk1 V c 4 t = V c main_arg5 from funext (bias_whole V c t)]
  obtain ⟨-, -, -, -, -, -, -, -, -, e0, e1⟩ := idx t
  have ht : t.val < 10 := t.isLt
  funext y
  have hy0 : (y 0).val < 5000 := (y 0).isLt
  have hy1 : (y 1).val < 128 := (y 1).isLt
  have hr : (((cfg1.win 5).blk t).view.emb y 0).val = t.val * 5000 + (y 0).val := by
    show win1_5.index t (0 : Fin 2) * 5000 + 1 * (y 0).val = _; omega
  have hc : (((cfg1.win 5).blk t).view.emb y 1).val = (y 1).val := by
    show win1_5.index t (1 : Fin 2) * 128 + 1 * (y 1).val = _; omega
  exact dense_row (V c main_v40) (V c main_v27) (iblk1 V c 0 t) (iblk1 V c 1 t) (V c main_v41) (V c main_v42) (V c main_arg5)
    y (((cfg1.win 5).blk t).view.emb y) (Fin.ext hc.symm)
    (fun k => agg_rows V c t (y 0) k _ hr) (fun k => feat_rows V c t (y 0) k _ hr)

/-- An index of the result array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43).slice (win1_5.rect t)).set ↔ _
  rw [View.set_slice_whole, Rect.mem_set_unit]
  exact Iff.rfl

/-- Every index of the result array lies in the block some point writes back: row `r` in block `r / 5000`. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  refine ⟨⟨(i 0).val / 5000, by show (i 0).val / 5000 < 10; omega⟩, flush1_5 _, ?_⟩
  rw [mem_blk]
  obtain ⟨-, -, -, -, -, -, -, -, -, e0, e1⟩ := idx ⟨(i 0).val / 5000, by show (i 0).val / 5000 < 10; omega⟩
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
  | ⟨1, _⟩ => show win1_5.index _ (1 : Fin 2) * 128 ≤ (i 1).val ∧ (i 1).val < win1_5.index _ (1 : Fin 2) * 128 + 128; rw [e1]; omega

/-- The result array after the region: the dense layer of the arrays the region found. -/
theorem final (c : Dev nD) : (dat1 V c).arrAt 5 cfg1.N = layer V c :=
  (dat1 V c).arrAt_eq_of_cover 5 (layer V c) (fun t _ => flushed_eq V c t) (cover)

end Cert.KernelIdeal.Region1

end
-- ==== Proof.GlueKernel.lean ====
/-
  The host operations the kernel program runs around its two dense regions, as functions never opened.

  Both programs compute, for each layer, the mean of the source features over each node's in-edges with the same
  host operations, and transpose the two weight arrays the same way. Nothing about the equivalence depends on what
  these operations compute, only on both programs applying the same ones to equal arrays, so they are named here
  and carried whole. This module spells them with the kernel program's dimension records.
-/
import proofs.«119215_j82592221102739_1_alg».proof.KernelIdeal
import proofs.«119215_j82592221102739_1_alg».proof.Proof.Gen.KernelIdeal
import Idealize.ShloMosaic.PureOps.Ideal

noncomputable section

namespace Cert.KernelIdeal.Glue

open Idealize.ShloMosaic Cert.KernelIdeal Cert.KernelIdeal.Facts₀

abbrev Edges := (⟨S2x800000, .i32⟩ : BufTy).Contents (Elt Ideal)
abbrev Ids := (⟨S800000, .i32⟩ : BufTy).Contents (Elt Ideal)
abbrev Feat := (⟨S50000x128, .f32⟩ : BufTy).Contents (Elt Ideal)
abbrev Deg := (⟨S50000, .f32⟩ : BufTy).Contents (Elt Ideal)
abbrev Wt := (⟨S128x128, .f32⟩ : BufTy).Contents (Elt Ideal)
abbrev Bias := (⟨S128, .f32⟩ : BufTy).Contents (Elt Ideal)

/-- The edges' source nodes: row 0 of the edge list. -/
def src (e : Edges) : Ids :=
  shapeCast _ (extractStridedSlice S1x800000 ![0, 0] e slices_S2x800000_S1x800000_0_0) shapeCasts_S1x800000_S800000

/-- The edges' target nodes: row 1 of the edge list. -/
def dst (e : Edges) : Ids :=
  shapeCast _ (extractStridedSlice S1x800000 ![1, 0] e slices_S2x800000_S1x800000_1_0) shapeCasts_S1x800000_S800000

/-- One over the in-degree, the degree counted by adding a one per edge at its target and clamped below by one. -/
def dinvOf (d : Ids) : Deg :=
  Host.divf (broadcastInDim S50000 ![] bcast_S_S50000 (constant (F := Ideal) S_ .f32 0x3F800000#32)) (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))) (broadcastInDim S50000 ![] bcast_S_S50000 (constant (F := Ideal) S_ .f32 0x3F800000#32)))

/-- Mean aggregation over in-edges: gather the source rows (a negative source index wrapped once by the node
    count), add each into its target's row, scale each row by one over the target's in-degree. -/
def aggOf (s d : Ids) (q : Deg) (h : Feat) : Feat :=
  mulf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 d) (Host.gather gather_S50000x128_S800000x1_S800000x128_1_0_n_n_0_1_1128 h (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 q))

/-- The aggregation as a function of the edge list and the features. -/
def agg (e : Edges) (h : Feat) : Feat := aggOf (src e) (dst e) (dinvOf (dst e)) h

/-- A weight array transposed (output-feature × input-feature to input-feature × output-feature). -/
def tr (W : Wt) : Wt := transpose S128x128 [1, 0] W transposes_S128x128_S128x128_1_0

end Cert.KernelIdeal.Glue

end
-- ==== Proof.KernelValue.lean ====
/-
  The kernel program's result as one function of its arguments.

  Reading the boundary contents backwards from the result array: the second region leaves the dense layer of what it
  finds; it finds the aggregation (computed by the host operations between the regions from the edge list and the
  first region's result), the first region's result itself, two transposed weight arrays and a bias. The first region
  leaves the dense layer of what IT finds: the aggregation of the input features, the input features, two transposed
  weight arrays and a bias. So the result is the two-layer composition
      layer₂ (layer₁ x),   layerᵢ h = dense (agg e h) h Wlᵢᵀ Wrᵢᵀ bᵢ.
-/
import proofs.«119215_j82592221102739_1_alg».proof.Proof.Gen.KernelIdeal.Frame
import proofs.«119215_j82592221102739_1_alg».proof.Proof.KernelRun
import proofs.«119215_j82592221102739_1_alg».proof.Proof.Region0
import proofs.«119215_j82592221102739_1_alg».proof.Proof.Region1
import proofs.«119215_j82592221102739_1_alg».proof.Proof.GlueKernel
import Idealize.ShloMosaic.Lib.StableHlo.Run

set_option maxRecDepth 16384
-- reading one buffer back through a line of thirty-odd host operations is one long rewriting pass
set_option maxHeartbeats 8000000

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Glue Cert.Sage

variable (m : (ℓ : Loc nD τ sig) → Buf (Elt Ideal) ℓ) (ρ : Dev nD → PrngReg)

/-- The first layer's value on core `c`'s arguments. -/
def layer1 (c : Dev nD) : Feat :=
  dense (M := 50000) (agg (m ((c : Thread nD τ).loc main_arg7)) (m ((c : Thread nD τ).loc main_arg0))) (m ((c : Thread nD τ).loc main_arg0))
    (tr (m ((c : Thread nD τ).loc main_arg1))) (tr (m ((c : Thread nD τ).loc main_arg3))) (m ((c : Thread nD τ).loc main_arg2))

/-- The second layer's value: the same layer, with the second weights and bias, of the first layer's value. -/
def layer2 (c : Dev nD) : Feat :=
  dense (M := 50000) (agg (m ((c : Thread nD τ).loc main_arg7)) (layer1 m c)) (layer1 m c)
    (tr (m ((c : Thread nD τ).loc main_arg4))) (tr (m ((c : Thread nD τ).loc main_arg6))) (m ((c : Thread nD τ).loc main_arg5))

/-! ## What the first region finds -/

theorem entry0_agg (c : Dev nD) : V1 m ρ c main_v24 = agg (m ((c : Thread nD τ).loc main_arg7)) (m ((c : Thread nD τ).loc main_arg0)) := by
  show StableHlo.after hostOps0 (W0 m ρ c) (Proc.devRef .tc main_v24) = _
  after_results_simp <;> rfl

theorem entry0_feat (c : Dev nD) : V1 m ρ c main_arg0 = (m ((c : Thread nD τ).loc main_arg0)) := by
  show StableHlo.after hostOps0 (W0 m ρ c) (Proc.devRef .tc main_arg0) = _
  after_results_simp <;> rfl

theorem entry0_wl (c : Dev nD) : V1 m ρ c main_v25 = tr (m ((c : Thread nD τ).loc main_arg1)) := by
  show StableHlo.after hostOps0 (W0 m ρ c) (Proc.devRef .tc main_v25) = _
  after_results_simp <;> rfl

theorem entry0_wr (c : Dev nD) : V1 m ρ c main_v26 = tr (m ((c : Thread nD τ).loc main_arg3)) := by
  show StableHlo.after hostOps0 (W0 m ρ c) (Proc.devRef .tc main_v26) = _
  after_results_simp <;> rfl

theorem entry0_bias (c : Dev nD) : V1 m ρ c main_arg2 = (m ((c : Thread nD τ).loc main_arg2)) := by
  show StableHlo.after hostOps0 (W0 m ρ c) (Proc.devRef .tc main_arg2) = _
  after_results_simp <;> rfl

/-! ## What the first region leaves, and what else the later host operations read -/

/-- The first region's result array holds the first layer's value. -/
theorem mid (c : Dev nD) : W2 m ρ c (Proc.devRef .tc main_v27) = layer1 m c := by
  refine (W2_arr m ρ c 5).trans ((Region0.final (V1 m ρ) c).trans ?_)
  show dense (V1 m ρ c main_v24) (V1 m ρ c main_arg0) (V1 m ρ c main_v25) (V1 m ρ c main_v26) (V1 m ρ c main_arg2) = _
  rw [entry0_agg, entry0_feat, entry0_wl, entry0_wr, entry0_bias]
  rfl

theorem mid_src (c : Dev nD) : W2 m ρ c (Proc.devRef .tc main_v1) = src (m ((c : Thread nD τ).loc main_arg7)) :=
  (W2_of_ne m ρ c main_v1 (by decide)).trans (by
    show StableHlo.after hostOps0 (W0 m ρ c) (Proc.devRef .tc main_v1) = _
    after_results_simp <;> rfl)

theorem mid_dst (c : Dev nD) : W2 m ρ c (Proc.devRef .tc main_v3) = dst (m ((c : Thread nD τ).loc main_arg7)) :=
  (W2_of_ne m ρ c main_v3 (by decide)).trans (by
    show StableHlo.after hostOps0 (W0 m ρ c) (Proc.devRef .tc main_v3) = _
    after_results_simp <;> rfl)

theorem mid_dinv (c : Dev nD) : W2 m ρ c (Proc.devRef .tc main_v11) = dinvOf (dst (m ((c : Thread nD τ).loc main_arg7))) :=
  (W2_of_ne m ρ c main_v11 (by decide)).trans (by
    show StableHlo.after hostOps0 (W0 m ρ c) (Proc.devRef .tc main_v11) = _
    after_results_simp <;> rfl)

theorem mid_wl (c : Dev nD) : W2 m ρ c (Proc.devRef .tc main_arg4) = (m ((c : Thread nD τ).loc main_arg4)) :=
  (W2_of_ne m ρ c main_arg4 (by decide)).trans (by
    show StableHlo.after hostOps0 (W0 m ρ c) (Proc.devRef .tc main_arg4) = _
    after_results_simp <;> rfl)

theorem mid_wr (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

theorem mid_bias (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

/-! ## What the second region finds -/

theorem entry1_agg (c : Dev nD) : V3 m ρ c main_v40 = agg (m ((c : Thread nD τ).loc main_arg7)) (layer1 m c) := by
  have h : V3 m ρ c main_v40 = aggOf (W2 m ρ c (Proc.devRef .tc main_v1)) (W2 m ρ c (Proc.devRef .tc main_v3))
      (W2 m ρ c (Proc.devRef .tc main_v11)) (W2 m ρ c (Proc.devRef .tc main_v27)) := by
    show StableHlo.after hostOps1 (W2 m ρ c) (Proc.devRef .tc main_v40) = _
    after_results_simp <;> rfl
  rw [h, mid_src, mid_dst, mid_dinv, mid]
  rfl

theorem entry1_feat (c : Dev nD) : V3 m ρ c main_v27 = layer1 m c := by
  have h : V3 m ρ c main_v27 = W2 m ρ c (Proc.devRef .tc main_v27) := by
    show StableHlo.after hostOps1 (W2 m ρ c) (Proc.devRef .tc main_v27) = _
    after_results_simp <;> rfl
  rw [h, mid]

theorem entry1_wl (c : Dev nD) : V3 m ρ c main_v41 = tr (m ((c : Thread nD τ).loc main_arg4)) := by
  have h : V3 m ρ c main_v41 = tr (W2 m ρ c (Proc.devRef .tc main_arg4)) := by
    show StableHlo.after hostOps1 (W2 m ρ c) (Proc.devRef .tc main_v41) = _
    after_results_simp <;> rfl
  rw [h, mid_wl]

theorem entry1_wr (c : Dev nD) : V3 m ρ c main_v42 = tr (m ((c : Thread nD τ).loc main_arg6)) := by
  have h : V3 m ρ c main_v42 = tr (W2 m ρ c (Proc.devRef .tc main_arg6)) := by
    show StableHlo.after hostOps1 (W2 m ρ c) (Proc.devRef .tc main_v42) = _
    after_results_simp <;> rfl
  rw [h, mid_wr]

theorem entry1_bias (c : Dev nD) : V3 m ρ c main_arg5 = (m ((c : Thread nD τ).loc main_arg5)) := by
  have h : V3 m ρ c main_arg5 = W2 m ρ c (Proc.devRef .tc main_arg5) := by
    show StableHlo.after hostOps1 (W2 m ρ c) (Proc.devRef .tc main_arg5) = _
    after_results_simp <;> rfl
  rw [h, mid_bias]

/-! ## The result -/

/-- The result array at the last boundary holds the second layer's value. -/
theorem result (c : Dev nD) : W4 m ρ c (Proc.devRef .tc main_v43) = layer2 m c := by
  refine (W4_arr m ρ c 5).trans ((Region1.final (V3 m ρ) c).trans ?_)
  show dense (V3 m ρ c main_v40) (V3 m ρ c main_v27) (V3 m ρ c main_v41) (V3 m ρ c main_v42) (V3 m ρ c main_arg5) = _
  rw [entry1_agg, entry1_feat, entry1_wl, entry1_wr, entry1_bias]
  rfl

/-- The kernel program's run: it terminates, nothing faulting, with the result array at the two-layer value of the
    arguments and the arguments as launched. -/
theorem run : θ_run defs (onTc (τ := τ) (main (F := Ideal))) ⟨m, fun _ => 0, ρ⟩ (fun r => ∀ c : Dev nD,
      r.2.mem ((c.tc : Thread nD τ).loc main_v43) = layer2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (run_result m ρ)

end Cert.KernelIdeal.Whole

end
-- ==== Proof.GlueReference.lean ====
/-
  The reference program's operations as functions: the shared aggregation and transposes (spelt with the
  reference's dimension records), and one layer as the reference spells it,
      max ((agg · Wlᵀ + b) + h · Wrᵀ, 0),
  which index by index is the dense layer: both products are plain sums over the contracted axis, the bias is
  spread along the rows, and the three summands may be regrouped because addition on the extended reals is
  commutative and associative.
-/
import proofs.«119215_j82592221102739_1_alg».proof.ReferenceIdeal
import proofs.«119215_j82592221102739_1_alg».proof.Proof.Gen.ReferenceIdeal
import proofs.«119215_j82592221102739_1_alg».proof.Proof.Dense
import Idealize.ShloMosaic.Lib.Pipeline.Value

noncomputable section

namespace Cert.ReferenceIdeal.Glue

open Idealize.ShloMosaic Idealize.ShloMosaic.ValueIdx Idealize.ShloMosaic.Pipeline Cert.ReferenceIdeal Cert.ReferenceIdeal.Facts₀ Cert.Lib.PlainDot Cert.Sage

abbrev Edges := (⟨S2x800000, .i32⟩ : BufTy).Contents (Elt Ideal)
abbrev Ids := (⟨S800000, .i32⟩ : BufTy).Contents (Elt Ideal)
abbrev Feat := (⟨S50000x128, .f32⟩ : BufTy).Contents (Elt Ideal)
abbrev Deg := (⟨S50000, .f32⟩ : BufTy).Contents (Elt Ideal)
abbrev Wt := (⟨S128x128, .f32⟩ : BufTy).Contents (Elt Ideal)
abbrev Bias := (⟨S128, .f32⟩ : BufTy).Contents (Elt Ideal)

/-- The edges' source nodes: row 0 of the edge list. -/
def src (e : Edges) : Ids :=
  shapeCast _ (extractStridedSlice S1x800000 ![0, 0] e slices_S2x800000_S1x800000_0_0) shapeCasts_S1x800000_S800000

/-- The edges' target nodes: row 1 of the edge list. -/
def dst (e : Edges) : Ids :=
  shapeCast _ (extractStridedSlice S1x800000 ![1, 0] e slices_S2x800000_S1x800000_1_0) shapeCasts_S1x800000_S800000

/-- One over the in-degree, the degree counted by adding a one per edge at its target and clamped below by one. -/
def dinvOf (d : Ids) : Deg :=
  Host.divf (broadcastInDim S50000 ![] bcast_S_S50000 (constant (F := Ideal) S_ .f32 0x3F800000#32)) (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 d) (broadcastInDim S800000 ![] bcast_S_S800000 (constant (F := Ideal) S_ .f32 0x3F800000#32))) (broadcastInDim S50000 ![] bcast_S_S50000 (constant (F := Ideal) S_ .f32 0x3F800000#32)))

/-- Mean aggregation over in-edges: gather the source rows (a negative source index wrapped once by the node
    count), add each into its target's row, scale each row by one over the target's in-degree. -/
def aggOf (s d : Ids) (q : Deg) (h : Feat) : Feat :=
  mulf (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 d) (Host.gather gather_S50000x128_S800000x1_S800000x128_1_0_n_n_0_1_1128 h (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))) (broadcastInDim S50000x128 ![0, 1] bcast_S50000x1_S50000x128_0_1 (broadcastInDim S50000x1 ![0] bcast_S50000_S50000x1_0 q))

/-- The aggregation as a function of the edge list and the features. -/
def agg (e : Edges) (h : Feat) : Feat := aggOf (src e) (dst e) (dinvOf (dst e)) h

/-- A weight array transposed (output-feature × input-feature to input-feature × output-feature). -/
def tr (W : Wt) : Wt := transpose S128x128 [1, 0] W transposes_S128x128_S128x128_1_0

/-- One layer as the reference spells it. -/
def hostLayer (e : Edges) (Wl : Wt) (b : Bias) (Wr : Wt) (h : Feat) : Feat :=
  maximumf (addf (addf (Host.dotGeneral (φ₁ := .f32) (φ₂ := .f32) dot_S50000x128_S128x128_S50000x128_1_0_0_1_n_n none (agg e h) (tr Wl)) (broadcastInDim S50000x128 ![0, 1] bcast_S1x128_S50000x128_0_1 (broadcastInDim S1x128 ![1] bcast_S128_S1x128_1 b))) (Host.dotGeneral (φ₁ := .f32) (φ₂ := .f32) dot_S50000x128_S128x128_S50000x128_1_0_0_1_n_n none h (tr Wr))) (broadcastInDim S50000x128 ![] bcast_S_S50000x128 (constant (F := Ideal) S_ .f32 0x00000000#32))

/-- The printed dimension numbers of the reference's products are the plain `50000×128` by `128×128` ones. -/
theorem dot_plain : dot_S50000x128_S128x128_S50000x128_1_0_0_1_n_n = DotDims.plain 50000 128 128 := rfl

/-- The bias recast as one row and spread over the 50000 rows, read at `j`, is the bias at `j`'s column. -/
theorem bias_rows (b : S128.Idx → EReal) (j : S50000x128.Idx) :
    broadcastInDim S50000x128 ![0, 1] bcast_S1x128_S50000x128_0_1 (broadcastInDim S1x128 ![1] bcast_S128_S1x128_1 b) j = b (ix1 (j 1)) := by
  rw [broadcastInDim_apply (s := S1x128) (t := S50000x128) ![0, 1] bcast_S1x128_S50000x128_0_1 _ j (ix2 (0 : Fin 1) (j 1)) (fun a => by
        match a with
        | ⟨0, _⟩ => rfl
        | ⟨1, _⟩ => rfl)]
  exact broadcastInDim_apply (s := S128) (t := S1x128) ![1] bcast_S128_S1x128_1 b (ix2 (0 : Fin 1) (j 1)) (ix1 (j 1)) (fun a => by
        match a with
        | ⟨0, _⟩ => rfl)

/-- The reference's layer is the dense layer of the aggregated features, the features, the transposed weights and
    the bias. -/
theorem hostLayer_eq (e : Edges) (Wl : Wt) (b : Bias) (Wr : Wt) (h : Feat) :
    hostLayer e Wl b Wr h = dense (agg e h) h (tr Wl) (tr Wr) b := by
  funext j
  unfold hostLayer
  rw [maximumf_apply, addf_apply, addf_apply, bias_rows, dot_plain, dotGeneral, dotGeneral]
  exact dense_assoc (agg e h) h (tr Wl) (tr Wr) b j

end Cert.ReferenceIdeal.Glue

end
-- ==== Proof.ReferenceValue.lean ====
/-
  The reference program's result as the same two-layer composition.

  The reference is one line of host operations; its result is the operations' composed term of the arguments. Grouped
  by layer that term is the reference's layer spelling applied twice, and each layer spelling is the dense layer of
  the aggregated features, the features, the transposed weights and the bias.
-/
import proofs.«119215_j82592221102739_1_alg».proof.Proof.Gen.ReferenceIdeal.Run
import proofs.«119215_j82592221102739_1_alg».proof.Proof.GlueReference

set_option maxRecDepth 16384

noncomputable section

namespace Cert.ReferenceIdeal.Whole

open Idealize.ShloMosaic Idealize.ShloMosaic.TcCoe Idealize.SL.Sem
open Cert.ReferenceIdeal Cert.ReferenceIdeal.Glue Cert.Sage

variable (m : (ℓ : Loc nD τ sig) → Buf (Elt Ideal) ℓ)

/-- The first layer's value on core `c`'s arguments. -/
def layer1 (c : Dev nD) : Feat :=
  dense (M := 50000) (agg (m ((c.tc : Thread nD τ).loc main_arg7)) (m ((c.tc : Thread nD τ).loc main_arg0))) (m ((c.tc : Thread nD τ).loc main_arg0))
    (tr (m ((c.tc : Thread nD τ).loc main_arg1))) (tr (m ((c.tc : Thread nD τ).loc main_arg3))) (m ((c.tc : Thread nD τ).loc main_arg2))

/-- The second layer's value. -/
def layer2 (c : Dev nD) : Feat :=
  dense (M := 50000) (agg (m ((c.tc : Thread nD τ).loc main_arg7)) (layer1 m c)) (layer1 m c)
    (tr (m ((c.tc : Thread nD τ).loc main_arg4))) (tr (m ((c.tc : Thread nD τ).loc main_arg6))) (m ((c.tc : Thread nD τ).loc main_arg5))

/-- The run's composed term is the reference's layer spelling applied twice. -/
theorem res_layers (c : Dev nD) : Value.res_main_v55 (F := Ideal) m c
    = hostLayer (m ((c.tc : Thread nD τ).loc main_arg7)) (m ((c.tc : Thread nD τ).loc main_arg4)) (m ((c.tc : Thread nD τ).loc main_arg5)) (m ((c.tc : Thread nD τ).loc main_arg6))
        (hostLayer (m ((c.tc : Thread nD τ).loc main_arg7)) (m ((c.tc : Thread nD τ).loc main_arg1)) (m ((c.tc : Thread nD τ).loc main_arg2)) (m ((c.tc : Thread nD τ).loc main_arg3)) (m ((c.tc : Thread nD τ).loc main_arg0))) := by
  unfold Value.res_main_v55
  rfl

/-- The reference's result is the two-layer value. -/
theorem res_eq (c : Dev nD) : Value.res_main_v55 (F := Ideal) m c = layer2 m c := by
  rw [res_layers, hostLayer_eq, hostLayer_eq]
  rfl

end Cert.ReferenceIdeal.Whole

end
-- ==== Proof.Bridge.lean ====
/-
  The two programs' values agree on agreeing arguments.

  Both values are the same two-layer composition; the aggregation and the transposes inside it are spelt with each
  program's own dimension records, and those records hold the same numbers, so the two spellings are one function.
-/
import proofs.«119215_j82592221102739_1_alg».proof.Proof.KernelValue
import proofs.«119215_j82592221102739_1_alg».proof.Proof.ReferenceValue

noncomputable section

namespace Cert.Bridge

open Idealize.ShloMosaic Idealize.ShloMosaic.TcCoe Idealize.SL.Sem

/-- The aggregation is one function under either program's records. -/
theorem agg_eq : Cert.ReferenceIdeal.Glue.agg = Cert.KernelIdeal.Glue.agg := rfl

/-- The transpose is one function under either program's records. -/
theorem tr_eq : Cert.ReferenceIdeal.Glue.tr = Cert.KernelIdeal.Glue.tr := rfl

/-- On arguments that agree, the reference's two-layer value is the kernel program's. -/
theorem layers_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Whole.layer2 m' c = Cert.KernelIdeal.Whole.layer2 m c := by
  obtain ⟨h0, h1, h2, h3, h4, h5, h6, h7⟩ := h
  unfold Cert.ReferenceIdeal.Whole.layer2 Cert.ReferenceIdeal.Whole.layer1 Cert.KernelIdeal.Whole.layer2 Cert.KernelIdeal.Whole.layer1
  rw [h0, h1, h2, h3, h4, h5, h6, h7, agg_eq, tr_eq]

end Cert.Bridge

end
-- ==== Proof.lean ====
/-
  Two graph-convolution layers with mean aggregation, computed by a program with two accelerator regions and by a
  plain host program: equal results on the extended reals.

  Each layer is  h ↦ max (agg(h) · Wlᵀ + h · Wrᵀ + b, 0),  where agg(h) averages the rows of h over each node's
  in-edges (a gather by source node, an add into each target node's row, a division by the clamped in-degree).
  Both programs compute agg and the transposes with the same host operations; they differ only in the dense part:
  the kernel program computes it in a region, ten blocks of 5000 rows at a time, adding the two products first and
  the bias last; the host program computes it on the whole arrays, adding the bias to the first product before the
  second. A row of either product reads only the same row of its left operand, so the blocks are the blocks of the
  whole-array layer, and the three summands may be regrouped because addition on the extended reals is commutative
  and associative. No input needs to be finite for that, so the precondition is never opened. The idealization
  rewrote nothing, so its conjunct is trivial.
-/
import proofs.«119215_j82592221102739_1_alg».proof.Defs
import proofs.«119215_j82592221102739_1_alg».proof.Proof.Gen.Kernel
import proofs.«119215_j82592221102739_1_alg».proof.Proof.Gen.Kernel.Frame
import proofs.«119215_j82592221102739_1_alg».proof.Proof.Gen.KernelIdeal
import proofs.«119215_j82592221102739_1_alg».proof.Proof.Gen.KernelIdeal.Frame
import proofs.«119215_j82592221102739_1_alg».proof.Proof.Gen.ReferenceIdeal
import proofs.«119215_j82592221102739_1_alg».proof.Proof.Gen.ReferenceIdeal.Run
import proofs.«119215_j82592221102739_1_alg».proof.Proof.Gen.Pre_finite_inputs
import proofs.«119215_j82592221102739_1_alg».proof.Proof.KernelValue
import proofs.«119215_j82592221102739_1_alg».proof.Proof.ReferenceValue
import proofs.«119215_j82592221102739_1_alg».proof.Proof.Bridge

noncomputable section

namespace Cert.Proof

open Idealize.ShloMosaic Idealize.ShloMosaic.TcCoe Idealize.SL.Sem

/-- The kernel program as printed runs, nothing faulting, its arguments unchanged. -/
theorem frame_kernel : Cert.frame_Kernel := fun m ρ _ => Cert.Kernel.Gen.frame m ρ

/-- The same program read on exact values runs, nothing faulting, its arguments unchanged. -/
theorem frame_kernel_ideal : Cert.frame_KernelIdeal := fun m ρ _ => Cert.KernelIdeal.Gen.frame m ρ

/-- The host program runs, nothing faulting, its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the two-layer value of the arguments. -/
theorem algebraic : Cert.algebraic_KernelIdeal_ReferenceIdeal := by
  intro m ρ m' ρ' _ hagree
  refine ⟨fun c => Cert.KernelIdeal.Whole.layer2 m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Whole.res_eq m' c).trans (Cert.Bridge.layers_eq m m' c (hagree c))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
